-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x64 : Shape := ⟨3, ![128, 512, 64]⟩
abbrev S128x512x1 : Shape := ⟨3, ![128, 512, 1]⟩
abbrev S128x1x512 : Shape := ⟨3, ![128, 1, 512]⟩
abbrev S1x1 : Shape := ⟨2, ![1, 1]⟩
abbrev S1 : Shape := ⟨1, ![1]⟩
abbrev S_ : Shape := ⟨0, ![]⟩

class Facts : Prop where
  bcast_S_S128x512x64 : S_.BroadcastsInDim S128x512x64 (![] : Fin 0 → Fin S128x512x64.rank)
  reducesTo_S128x512x64_S_d0_1_2 : S128x512x64.ReducesTo [0, 1, 2] S_
  h_S_ : 0 < S_.numel
  bcast_S_S128x512x1 : S_.BroadcastsInDim S128x512x1 (![] : Fin 0 → Fin S128x512x1.rank)
  reducesTo_S128x512x1_S_d0_1_2 : S128x512x1.ReducesTo [0, 1, 2] S_
  bcast_S_S128x1x512 : S_.BroadcastsInDim S128x1x512 (![] : Fin 0 → Fin S128x1x512.rank)
  reducesTo_S128x1x512_S_d0_1_2 : S128x1x512.ReducesTo [0, 1, 2] S_
  bcast_S_S1x1 : S_.BroadcastsInDim S1x1 (![] : Fin 0 → Fin S1x1.rank)
  reducesTo_S1x1_S_d0_1 : S1x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x1 .f32) (main_arg5 : FVec F S1 .f32) (main_v13 : IVec S_ 1) (main_v16 : IVec S128x1x512 1) : IVec S_ 1 :=
  let main_c_5 : IVec S_ 1 := constantI S_ 1 1#1
  let main_v17 : IVec S_ 1 := (fun x v => Host.reduce IntOp.andi x v reducesTo_S128x1x512_S_d0_1_2 h_S_) main_v16 main_c_5
  let main_v18 : IVec S_ 1 := andi main_v13 main_v17
  let main_v19 : FVec F S1x1 .f32 := Host.absf main_arg4
  let main_cst_6 : FVec F S_ .f32 := constant S_ .f32 0x7F800000#32
  let main_v20 : FVec F S1x1 .f32 := broadcastInDim S1x1 ![] bcast_S_S1x1 main_cst_6
  let main_v21 : IVec S1x1 1 := cmpf .olt main_v19 main_v20
  let main_c_7 : IVec S_ 1 := constantI S_ 1 1#1
  let main_v22 : IVec S_ 1 := (fun x v => Host.reduce IntOp.andi x v reducesTo_S1x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S128x512x64 .f32) (main_arg1 : FVec F S128x512x64 .f32) (main_arg2 : FVec F S128x512x1 .f32) (main_arg3 : FVec F S128x1x512 .f32) (main_arg4 : FVec F S1x1 .f32) (main_arg5 : FVec F S1 .f32) : IVec S_ 1 :=
  let main_v0 : FVec F S128x512x64 .f32 := Host.absf main_arg0
  let main_cst : FVec F S_ .f32 := constant S_ .f32 0x7F800000#32
  let main_v1 : FVec F S128x512x64 .f32 := broadcastInDim S128x512x64 ![] bcast_S_S128x512x64 main_cst
  let main_v2 : IVec S128x512x64 1 := cmpf .olt main_v0 main_v1
  let main_c : IVec S_ 1 := constantI S_ 1 1#1
  let main_v3 : IVec S_ 1 := (fun x v => Host.reduce IntOp.andi x v reducesTo_S128x512x64_S_d0_1_2 h_S_) main_v2 main_c
  let main_v4 : FVec F S128x512x64 .f32 := Host.absf main_arg1
  let main_cst_0 : FVec F S_ .f32 := constant S_ .f32 0x7F800000#32
  let main_v5 : FVec F S128x512x64 .f32 := broadcastInDim S128x512x64 ![] bcast_S_S128x512x64 main_cst_0
  let main_v6 : IVec S128x512x64 1 := cmpf .olt main_v4 main_v5
  let main_c_1 : IVec S_ 1 := constantI S_ 1 1#1
  let main_v7 : IVec S_ 1 := (fun x v => Host.reduce IntOp.andi x v reducesTo_S128x512x64_S_d0_1_2 h_S_) main_v6 main_c_1
  let main_v8 : IVec S_ 1 := andi main_v3 main_v7
  let main_v9 : FVec F S128x512x1 .f32 := Host.absf main_arg2
  let main_cst_2 : FVec F S_ .f32 := constant S_ .f32 0x7F800000#32
  let main_v10 : FVec F S128x512x1 .f32 := broadcastInDim S128x512x1 ![] bcast_S_S128x512x1 main_cst_2
  let main_v11 : IVec S128x512x1 1 := cmpf .olt main_v9 main_v10
  let main_c_3 : IVec S_ 1 := constantI S_ 1 1#1
  let main_v12 : IVec S_ 1 := (fun x v => Host.reduce IntOp.andi x v reducesTo_S128x512x1_S_d0_1_2 h_S_) main_v11 main_c_3
  let main_v13 : IVec S_ 1 := andi main_v8 main_v12
  let main_v14 : FVec F S128x1x512 .f32 := Host.absf main_arg3
  let main_cst_4 : FVec F S_ .f32 := constant S_ .f32 0x7F800000#32
  let main_v15 : FVec F S128x1x512 .f32 := broadcastInDim S128x1x512 ![] bcast_S_S128x1x512 main_cst_4
  let main_v16 : IVec S128x1x512 1 := cmpf .olt main_v14 main_v15
  fn_part1 (F := F) main_arg4 main_arg5 main_v13 main_v16
-- ==== Kernel.lean ====
abbrev S128x512x64 : Shape := ⟨3, ![128, 512, 64]⟩
abbrev S128x512x1 : Shape := ⟨3, ![128, 512, 1]⟩
abbrev S128x1x512 : Shape := ⟨3, ![128, 1, 512]⟩
abbrev S1x1 : Shape := ⟨2, ![1, 1]⟩
abbrev S1 : Shape := ⟨1, ![1]⟩
abbrev S128x512 : Shape := ⟨2, ![128, 512]⟩
abbrev S8x512x64 : Shape := ⟨3, ![8, 512, 64]⟩
abbrev S8x1x512 : Shape := ⟨3, ![8, 1, 512]⟩
abbrev S8x512 : Shape := ⟨2, ![8, 512]⟩
abbrev S8x512x1 : Shape := ⟨3, ![8, 512, 1]⟩
abbrev S8x512x512 : Shape := ⟨3, ![8, 512, 512]⟩

abbrev nBuf : Space → Nat
  | .hbm => 8
  | .vmem => 12
  | .smem => 0
  | _ => 0

abbrev bufTy : (tb : Table) → Fin (tcTables nBuf tb) → BufTy
  | .hbm, ⟨0, _⟩ => ⟨S128x512x64, .f32⟩
  | .hbm, ⟨1, _⟩ => ⟨S128x512x64, .f32⟩
  | .hbm, ⟨2, _⟩ => ⟨S128x512x1, .f32⟩
  | .hbm, ⟨3, _⟩ => ⟨S128x1x512, .f32⟩
  | .hbm, ⟨4, _⟩ => ⟨S1x1, .f32⟩
  | .hbm, ⟨5, _⟩ => ⟨S1, .f32⟩
  | .hbm, ⟨6, _⟩ => ⟨S128x1x512, .f32⟩
  | .hbm, ⟨7, _⟩ => ⟨S128x512, .f32⟩
  | .local _ .vmem, ⟨0, _⟩ => ⟨S1x1, .f32⟩
  | .local _ .vmem, ⟨1, _⟩ => ⟨S1, .f32⟩
  | .local _ .vmem, ⟨2, _⟩ => ⟨S8x512x64, .f32⟩
  | .local _ .vmem, ⟨3, _⟩ => ⟨S8x512x64, .f32⟩
  | .local _ .vmem, ⟨4, _⟩ => ⟨S8x512x64, .f32⟩
  | .local _ .vmem, ⟨5, _⟩ => ⟨S8x512x64, .f32⟩
  | .local _ .vmem, ⟨6, _⟩ => ⟨S8x1x512, .f32⟩
  | .local _ .vmem, ⟨7, _⟩ => ⟨S8x1x512, .f32⟩
  | .local _ .vmem, ⟨8, _⟩ => ⟨S8x1x512, .f32⟩
  | .local _ .vmem, ⟨9, _⟩ => ⟨S8x1x512, .f32⟩
  | .local _ .vmem, ⟨10, _⟩ => ⟨S8x512, .f32⟩
  | .local _ .vmem, ⟨11, _⟩ => ⟨S8x512, .f32⟩
  | _, _ => ⟨S128x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S128x512x1_S128x1x512_0_2_1 : S128x512x1.Transposes [0, 2, 1] S128x1x512
  inb_S8x512x64_S8x512x64_0_0_0 : ∀ a, (![0, 0, 0] : Fin 3 → Nat) a + S8x512x64.size a ≤ S8x512x64.size a
  h_S8x512x64 : 0 < S8x512x64.numel
  reduces_S8x512x64_S8x512 : S8x512x64.Reduces [2] S8x512
  shapeCasts_S8x512_S8x512x1 : S8x512.ShapeCasts S8x512x1
  broadcasts_S8x512x1_S8x512x64 : S8x512x1.Broadcasts S8x512x64
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1_S1_0 : ∀ a, (![0] : Fin 1 → Nat) a + S1.size a ≤ S1.size a
  h_S1 : 0 < S1.numel
  inpos_S1_p0 : ∀ a, (![0] : Fin 1 → Nat) a < S1.size a
  inb_S8x1x512_S8x1x512_0_0_0 : ∀ a, (![0, 0, 0] : Fin 3 → Nat) a + S8x1x512.size a ≤ S8x1x512.size a
  h_S8x1x512 : 0 < S8x1x512.numel
  shapeCasts_S8x1x512_S8x1x512 : S8x1x512.ShapeCasts S8x1x512
  broadcasts_S8x1x512_S8x512x512 : S8x1x512.Broadcasts S8x512x512
  reduces_S8x512x512_S8x512 : S8x512x512.Reduces [2] S8x512
  inb_S8x512_S8x512_0_0 : ∀ a, (![0, 0] : Fin 2 → Nat) a + S8x512.size a ≤ S8x512.size a
  h_S8x512 : 0 < S8x512.numel
  dot_S8x512x64_S8x512x64_S8x512x512_2_2_1_1_0_0_wf : DotDims.WF S8x512x64 S8x512x64 S8x512x512 [2] [2] [1] [1] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1.size a ≤ S1.size a
  hwx0_1 : ∀ i : grid0.Coords, EltTy.bits .f32 = 32 ∨ (Rect.block (s := S1) S1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512x64.size a ≤ S128x512x64.size a
  hwx0_2 : ∀ i : grid0.Coords, EltTy.bits .f32 = 32 ∨ (Rect.block (s := S128x512x64) S8x512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512x64.size a ≤ S128x512x64.size a
  hwx0_3 : ∀ i : grid0.Coords, EltTy.bits .f32 = 32 ∨ (Rect.block (s := S128x512x64) S8x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1x512.size a ≤ S128x1x512.size a
  hwx0_4 : ∀ i : grid0.Coords, EltTy.bits .f32 = 32 ∨ (Rect.block (s := S128x1x512) S8x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1x512.size a ≤ S128x1x512.size a
  hwx0_5 : ∀ i : grid0.Coords, EltTy.bits .f32 = 32 ∨ (Rect.block (s := S128x1x512) S8x1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x512.size a ≤ S128x512.size a
  hwx0_6 : ∀ i : grid0.Coords, EltTy.bits .f32 = 32 ∨ (Rect.block (s := S128x512) S8x512.size (cc0_transform_6 i) (hinb0_6 i)).WholeWords (EltTy.packing .f32)

variable [Facts₀]

def dot_S8x512x64_S8x512x64_S8x512x512_2_2_1_1_0_0 : DotDims S8x512x64 S8x512x64 S8x512x512 where
  lhsContracting := [2]
  rhsContracting := [2]
  lhsNonContracting := [1]
  rhsNonContracting := [1]
  lhsBatch := [0]
  rhsBatch := [0]
  wf := dot_S8x512x64_S8x512x64_S8x512x512_2_2_1_1_0_0_wf

abbrev win0_0 : Pipeline.Window sig grid0 :=
  Pipeline.Window.ofSpec (Memref.whole main_arg4) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S8x512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S8x512x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S8x1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S8x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S128x512x64 : Shape := ⟨3, ![128, 512, 64]⟩
abbrev S128x512x1 : Shape := ⟨3, ![128, 512, 1]⟩
abbrev S128x1x512 : Shape := ⟨3, ![128, 1, 512]⟩
abbrev S1x1 : Shape := ⟨2, ![1, 1]⟩
abbrev S1 : Shape := ⟨1, ![1]⟩
abbrev S_ : Shape := ⟨0, ![]⟩
abbrev S128x512 : Shape := ⟨2, ![128, 512]⟩
abbrev S128x512x512 : Shape := ⟨3, ![128, 512, 512]⟩

abbrev nBuf : Space → Nat
  | .hbm => 48
  | .vmem => 0
  | .smem => 0
  | _ => 0

abbrev bufTy : (tb : Table) → Fin (tcTables nBuf tb) → BufTy
  | .hbm, ⟨0, _⟩ => ⟨S128x512x64, .f32⟩
  | .hbm, ⟨1, _⟩ => ⟨S128x512x64, .f32⟩
  | .hbm, ⟨2, _⟩ => ⟨S128x512x1, .f32⟩
  | .hbm, ⟨3, _⟩ => ⟨S128x1x512, .f32⟩
  | .hbm, ⟨4, _⟩ => ⟨S1x1, .f32⟩
  | .hbm, ⟨5, _⟩ => ⟨S1, .f32⟩
  | .hbm, ⟨6, _⟩ => ⟨S128x512x64, .f32⟩
  | .hbm, ⟨7, _⟩ => ⟨S_, .f32⟩
  | .hbm, ⟨8, _⟩ => ⟨S128x512, .f32⟩
  | .hbm, ⟨9, _⟩ => ⟨S128x512x1, .f32⟩
  | .hbm, ⟨10, _⟩ => ⟨S128x512x1, .f32⟩
  | .hbm, ⟨11, _⟩ => ⟨S_, .f32⟩
  | .hbm, ⟨12, _⟩ => ⟨S128x512x1, .f32⟩
  | .hbm, ⟨13, _⟩ => ⟨S128x512x1, .f32⟩
  | .hbm, ⟨14, _⟩ => ⟨S128x512x64, .f32⟩
  | .hbm, ⟨15, _⟩ => ⟨S128x512x64, .f32⟩
  | .hbm, ⟨16, _⟩ => ⟨S128x512x64, .f32⟩
  | .hbm, ⟨17, _⟩ => ⟨S_, .f32⟩
  | .hbm, ⟨18, _⟩ => ⟨S128x512, .f32⟩
  | .hbm, ⟨19, _⟩ => ⟨S128x512x1, .f32⟩
  | .hbm, ⟨20, _⟩ => ⟨S128x512x1, .f32⟩
  | .hbm, ⟨21, _⟩ => ⟨S_, .f32⟩
  | .hbm, ⟨22, _⟩ => ⟨S128x512x1, .f32⟩
  | .hbm, ⟨23, _⟩ => ⟨S128x512x1, .f32⟩
  | .hbm, ⟨24, _⟩ => ⟨S128x512x64, .f32⟩
  | .hbm, ⟨25, _⟩ => ⟨S128x512x64, .f32⟩
  | .hbm, ⟨26, _⟩ => ⟨S128x512x512, .f32⟩
  | .hbm, ⟨27, _⟩ => ⟨S128x512x512, .f32⟩
  | .hbm, ⟨28, _⟩ => ⟨S128x512x512, .f32⟩
  | .hbm, ⟨29, _⟩ => ⟨S_, .f32⟩
  | .hbm, ⟨30, _⟩ => ⟨S128x512x512, .f32⟩
  | .hbm, ⟨31, _⟩ => ⟨S128x512x512, .f32⟩
  | .hbm, ⟨32, _⟩ => ⟨S_, .f32⟩
  | .hbm, ⟨33, _⟩ => ⟨S128x512x512, .f32⟩
  | .hbm, ⟨34, _⟩ => ⟨S128x512x512, .f32⟩
  | .hbm, ⟨35, _⟩ => ⟨S128x512x512, .f32⟩
  | .hbm, ⟨36, _⟩ => ⟨S128x512x512, .f32⟩
  | .hbm, ⟨37, _⟩ => ⟨S_, .f32⟩
  | .hbm, ⟨38, _⟩ => ⟨S128x512x512, .f32⟩
  | .hbm, ⟨39, _⟩ => ⟨S128x512x512, .f32⟩
  | .hbm, ⟨40, _⟩ => ⟨S_, .f32⟩
  | .hbm, ⟨41, _⟩ => ⟨S128x512x512, .f32⟩
  | .hbm, ⟨42, _⟩ => ⟨S128x512x512, .f32⟩
  | .hbm, ⟨43, _⟩ => ⟨S128x512x512, .f32⟩
  | .hbm, ⟨44, _⟩ => ⟨S128x512x512, .f32⟩
  | .hbm, ⟨45, _⟩ => ⟨S128x512x512, .f32⟩
  | .hbm, ⟨46, _⟩ => ⟨S_, .f32⟩
  | .hbm, ⟨47, _⟩ => ⟨S128x512, .f32⟩
  | _, _ => ⟨S128x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call1_v0 : Ref sig .tc := ⟨.hbm, 16, rfl⟩
abbrev main_call1_cst : Ref sig .tc := ⟨.hbm, 17, rfl⟩
abbrev main_call1_v1 : Ref sig .tc := ⟨.hbm, 18, rfl⟩
abbrev main_call1_v2 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩

abbrev nD : Nat := 1
abbrev τ : Topo := Topo.v7x

variable {F : FTy → Type} [FloatOps F]

class Facts₀ : Prop where
  reducesTo_S128x512x64_S128x512_d2 : S128x512x64.ReducesTo [2] S128x512
  h_S_ : 0 < S_.numel
  bcast_S128x512_S128x512x1_0_1 : S128x512.BroadcastsInDim S128x512x1 (![0, 1] : Fin 2 → Fin S128x512x1.rank)
  bcast_S_S128x512x1 : S_.BroadcastsInDim S128x512x1 (![] : Fin 0 → Fin S128x512x1.rank)
  bcast_S128x512x1_S128x512x64_0_1_2 : S128x512x1.BroadcastsInDim S128x512x64 (![0, 1, 2] : Fin 3 → Fin S128x512x64.rank)
  bcast_S128x512x1_S128x512x512_0_1_2 : S128x512x1.BroadcastsInDim S128x512x512 (![0, 1, 2] : Fin 3 → Fin S128x512x512.rank)
  shapeCasts_S1x1_S_ : S1x1.ShapeCasts S_
  bcast_S_S128x512x512 : S_.BroadcastsInDim S128x512x512 (![] : Fin 0 → Fin S128x512x512.rank)
  shapeCasts_S1_S_ : S1.ShapeCasts S_
  transposes_S128x512x512_S128x512x512_0_2_1 : S128x512x512.Transposes [0, 2, 1] S128x512x512
  bcast_S128x1x512_S128x512x512_0_1_2 : S128x1x512.BroadcastsInDim S128x512x512 (![0, 1, 2] : Fin 3 → Fin S128x512x512.rank)
  reducesTo_S128x512x512_S128x512_d2 : S128x512x512.ReducesTo [2] S128x512
  dot_S128x512x64_S128x512x64_S128x512x512_2_2_1_1_0_0_wf : DotDims.WF S128x512x64 S128x512x64 S128x512x512 [2] [2] [1] [1] [0] [0]

variable [Facts₀]

def dot_S128x512x64_S128x512x64_S128x512x512_2_2_1_1_0_0 : DotDims S128x512x64 S128x512x64 S128x512x512 where
  lhsContracting := [2]
  rhsContracting := [2]
  lhsNonContracting := [1]
  rhsNonContracting := [1]
  lhsBatch := [0]
  rhsBatch := [0]
  wf := dot_S128x512x64_S128x512x64_S128x512x512_2_2_1_1_0_0_wf

class Facts : Prop extends Facts₀ where

variable [Facts]
-- ==== Proof.Spec.lean ====
/-
  The function both programs compute, stated once, with no program in sight.

  For a batch entry b, a sequence position s and an item n, write u = user[b, s, ·] and v = item[b, n, ·] (rows of 64
  numbers). Each row is divided by its Euclidean length, the length clamped from below by the constant 1e-7; the
  cosine of the two rows is the sum over the 64 coordinates of the products of the normalised entries. The score of
  (b, s, n) is  logistic (cosine · weight[b, n] · pw + pb) · mask[b, n],  and the result at (b, s) is the maximum of the
  scores over the 512 items n, taken as a fold of `max` that starts from the f32 word of −∞.

  Everything is over the extended reals; no law used later needs finiteness (only commutativity of the product inside
  the cosine), so infinities are not excluded anywhere.
-/
import Idealize.ShloMosaic.PureOps.Ideal
import Idealize.ShloMosaic.PureOps.Ideal.Laws
import Idealize.ShloMosaic.Lib.ValueIdx

noncomputable section

namespace Cert.CosineGate

open Idealize.ShloMosaic Idealize.ShloMosaic.ValueIdx

/-- The lower clamp of a row's length: the f32 word of 1e-7, as the extended real it denotes. -/
def clampWord : EReal := Ideal.ofBits .f32 0x33D6BF95#32

/-- The value the maximum over items starts from: the f32 word of −∞. -/
def floorWord : EReal := Ideal.ofBits .f32 0xFF800000#32

/-- A row's Euclidean length, clamped from below. -/
def clampedLength (r : Fin 64 → EReal) : EReal :=
  max (Ideal.sqrt (∑ e : Fin 64, r e * r e)) clampWord

/-- The cosine of two rows: the sum of the products of their normalised entries. -/
def cosine (r q : Fin 64 → EReal) : EReal :=
  ∑ e : Fin 64, Ideal.div (r e) (clampedLength r) * Ideal.div (q e) (clampedLength q)

/-- One item's score: the logistic function of the affine image of the weighted cosine, times the mask. -/
def score (c w pw pb mk : EReal) : EReal :=
  Ideal.logistic (c * w * pw + pb) * mk

/-- The maximum over the 512 items, as the fold of `max` from `floorWord`. -/
def itemMax (f : Fin 512 → EReal) : EReal :=
  (Finset.univ : Finset (Fin 512)).fold max floorWord f

/-- The result at batch entry `b` and position `s`, from the six argument arrays. -/
def resultAt (x0 x1 : (⟨3, ![128, 512, 64]⟩ : Shape).Idx → EReal) (x2 : (⟨3, ![128, 512, 1]⟩ : Shape).Idx → EReal)
    (x3 : (⟨3, ![128, 1, 512]⟩ : Shape).Idx → EReal) (x4 : (⟨2, ![1, 1]⟩ : Shape).Idx → EReal)
    (x5 : (⟨1, ![1]⟩ : Shape).Idx → EReal) (b : Fin 128) (s : Fin 512) : EReal :=
  itemMax fun n =>
    score (cosine (fun e => x0 (ix3 b s e)) (fun e => x1 (ix3 b n e)))
      (x2 (ix3 b n (0 : Fin 1))) (x4 (ix2 (0 : Fin 1) (0 : Fin 1))) (x5 (ix1 (0 : Fin 1))) (x3 (ix3 b (0 : Fin 1) n))

/-- The whole result array. -/
def result (x0 x1 : (⟨3, ![128, 512, 64]⟩ : Shape).Idx → EReal) (x2 : (⟨3, ![128, 512, 1]⟩ : Shape).Idx → EReal)
    (x3 : (⟨3, ![128, 1, 512]⟩ : Shape).Idx → EReal) (x4 : (⟨2, ![1, 1]⟩ : Shape).Idx → EReal)
    (x5 : (⟨1, ![1]⟩ : Shape).Idx → EReal) : (⟨2, ![128, 512]⟩ : Shape).Idx → EReal :=
  fun j => resultAt x0 x1 x2 x3 x4 x5 (j 0) (j 1)

theorem result_ix2 (x0 x1 : (⟨3, ![128, 512, 64]⟩ : Shape).Idx → EReal) (x2 : (⟨3, ![128, 512, 1]⟩ : Shape).Idx → EReal)
    (x3 : (⟨3, ![128, 1, 512]⟩ : Shape).Idx → EReal) (x4 : (⟨2, ![1, 1]⟩ : Shape).Idx → EReal)
    (x5 : (⟨1, ![1]⟩ : Shape).Idx → EReal) (b : Fin 128) (s : Fin 512) :
    result x0 x1 x2 x3 x4 x5 (ix2 b s) = resultAt x0 x1 x2 x3 x4 x5 b s := rfl

/-- The product inside the cosine commutes: the two rows may be exchanged. -/
theorem cosine_comm (r q : Fin 64 → EReal) : cosine r q = cosine q r :=
  Finset.sum_congr rfl fun _ _ => mul_comm _ _

end Cert.CosineGate

end
-- ==== Proof.Payload.lean ====
/-
  The arithmetic of one block, read at an index.

  One block holds 8 batch entries. Its inputs are two blocks of rows of 64 numbers, `u[p, s, ·]` and `v[p, n, ·]`
  (8 × 512 rows each), one row of 512 weights and one row of 512 mask values per batch entry, and two single numbers
  `pw` and `pb`. The body divides every row by its Euclidean length (the square root of the sum of the squares of its
  entries), clamped from below by the constant 1e-7; multiplies the two normalised blocks, contracting the 64
  coordinates, which gives at `(p, s, n)` the cosine of row `(p, s)` of `u` and row `(p, n)` of `v`; takes at each
  `(p, s, n)` the logistic function of  cosine · weight[p, n] · pw + pb,  times mask[p, n]; and at each `(p, s)` the
  maximum of these scores over the 512 items `n`, starting from −∞.

  The module reads this chain at one index `(p, s)`, operation by operation: first the layout operations (a reduced
  value kept as a column, a column spread along its row, a row spread over the positions), then a normalised entry,
  then the product as a sum over the 64 coordinates, then a score, then the maximum over the items. The result,
  `pay_apply`, is the specification's `itemMax` of `score` of `cosine`. Every float is an extended real here and every
  operation exact; no step needs an entry to be finite.
-/
import proofs.«154380_j25967372271703_1_alg».proof.Proof.Gen.KernelIdeal.Skeleton
import proofs.«154380_j25967372271703_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.CosineGate.Body

open Cert.KernelIdeal Cert.KernelIdeal.Gen Idealize.ShloMosaic Idealize.ShloMosaic.ValueIdx Cert.CosineGate

/-! ## Layout operations at an index given by coordinates -/

section Layout
variable {α : Type}

/-- A row's reduced value kept as a one-entry column: `[8,512] → [8,512,1]` read at `(p, s, z)` is the operand at `(p, s)`. -/
theorem keepColumn_apply (x : S8x512.Idx → α) (h : S8x512.ShapeCasts S8x512x1) (p : Fin 8) (s : Fin 512) (z : Fin 1) :
    shapeCast S8x512x1 x h (ix3 p s z) = x (ix2 p s) :=
  shapeCast_apply x h _ _ (by
    have hz : z.val = 0 := by omega
    rw [Shape.rowMajor_val_two, Shape.rowMajor_val_three]
    show p.val * 512 + s.val = (p.val * 512 + s.val) * 1 + z.val
    rw [hz, Nat.mul_one, Nat.add_zero])

/-- The one-entry column spread along the row: `[8,512,1] → [8,512,64]` read at `(p, s, e)` is the operand at `(p, s, 0)`. -/
theorem spreadColumn_apply (x : S8x512x1.Idx → α) (h : S8x512x1.Broadcasts S8x512x64) (p : Fin 8) (s : Fin 512) (e : Fin 64) :
    broadcastTo S8x512x64 x h (ix3 p s e) = x (ix3 p s (0 : Fin 1)) :=
  broadcastTo_apply x h (ix3 p s e) (ix3 p s (0 : Fin 1)) fun a => by
    match a with
    | ⟨0, _⟩ => show p.val = if (8 : Nat) = 1 then 0 else p.val; rw [if_neg (by decide)]
    | ⟨1, _⟩ => show s.val = if (512 : Nat) = 1 then 0 else s.val; rw [if_neg (by decide)]
    | ⟨2, _⟩ => show 0 = if (1 : Nat) = 1 then 0 else e.val; rw [if_pos rfl]

/-- One row per batch entry spread over the positions: `[8,1,512] → [8,512,512]` read at `(p, s, n)` is the operand at `(p, 0, n)`. -/
theorem spreadRow_apply (x : S8x1x512.Idx → α) (h : S8x1x512.Broadcasts S8x512x512) (p : Fin 8) (s : Fin 512) (n : Fin 512) :
    broadcastTo S8x512x512 x h (ix3 p s n) = x (ix3 p (0 : Fin 1) n) :=
  broadcastTo_apply x h (ix3 p s n) (ix3 p (0 : Fin 1) n) fun a => by
    match a with
    | ⟨0, _⟩ => show p.val = if (8 : Nat) = 1 then 0 else p.val; rw [if_neg (by decide)]
    | ⟨1, _⟩ => show 0 = if (1 : Nat) = 1 then 0 else s.val; rw [if_pos rfl]
    | ⟨2, _⟩ => show n.val = if (512 : Nat) = 1 then 0 else n.val; rw [if_neg (by decide)]

end Layout

/-- The index over `(p, s)` with coordinate `e` inserted on the last axis of a row block is `(p, s, e)`. -/
theorem lift_row (h : S8x512x64.Reduces [2] S8x512) (p : Fin 8) (s : Fin 512) (e : Fin 64) :
    h.lift (ix2 p s) e = ix3 p s e :=
  funext fun a => Fin.ext (by match a with | ⟨0, _⟩ => rfl | ⟨1, _⟩ => rfl | ⟨2, _⟩ => rfl)

/-- The same for the block of scores: coordinate `n` inserted over `(p, s)` is `(p, s, n)`. -/
theorem lift_item (h : S8x512x512.Reduces [2] S8x512) (p : Fin 8) (s : Fin 512) (n : Fin 512) :
    h.lift (ix2 p s) n = ix3 p s n :=
  funext fun a => Fin.ext (by match a with | ⟨0, _⟩ => rfl | ⟨1, _⟩ => rfl | ⟨2, _⟩ => rfl)

/-! ## A row divided by its clamped length -/

/-- The sum over a row of the squares of its entries. -/
theorem sumSquares_apply (r : FVec Ideal S8x512x64 .f32) (p : Fin 8) (s : Fin 512) :
    multiReduction (F := Ideal) .add [2] S8x512 (mulf r r) 0x00000000#32 reduces_S8x512x64_S8x512 (.inl rfl) rfl (ix2 p s)
      = ∑ e : Fin 64, r (ix3 p s e) * r (ix3 p s e) :=
  (Ideal.multiReduction_add_single (mulf r r) 0x00000000#32 reduces_S8x512x64_S8x512 (.inl rfl) rfl (ix2 p s)).trans
    (show (∑ e : Fin 64, mulf r r (reduces_S8x512x64_S8x512.lift (ix2 p s) e)) = _ from
      Finset.sum_congr rfl fun e _ => by rw [lift_row]; rfl)

/-- A block of rows, each divided by its Euclidean length clamped from below by the constant `1e-7`. -/
def normalised (r : FVec Ideal S8x512x64 .f32) : FVec Ideal S8x512x64 .f32 :=
  divf r (broadcastTo S8x512x64
    (maximumf (sqrt (shapeCast S8x512x1
        (multiReduction (F := Ideal) .add [2] S8x512 (mulf r r) 0x00000000#32 reduces_S8x512x64_S8x512 (.inl rfl) rfl)
        shapeCasts_S8x512_S8x512x1))
      (broadcast S8x512x1 (Scalar.ofBits .f32 0x33D6BF95#32)))
    broadcasts_S8x512x1_S8x512x64)

/-- Its entry at `(p, s, e)`: the row's entry over the row's clamped length. -/
theorem normalised_apply (r : FVec Ideal S8x512x64 .f32) (p : Fin 8) (s : Fin 512) (e : Fin 64) :
    normalised r (ix3 p s e) = Ideal.div (r (ix3 p s e)) (clampedLength fun e' => r (ix3 p s e')) := by
  unfold normalised
  rw [divf_apply, spreadColumn_apply, maximumf_apply]
  show Ideal.div _ (max (Ideal.sqrt (shapeCast S8x512x1 _ _ (ix3 p s (0 : Fin 1)))) clampWord) = _
  rw [keepColumn_apply, sumSquares_apply]
  rfl

/-! ## The product of two blocks of rows: sums over the 64 coordinates -/

/-- The contraction of the kernel's matrix product: batch axis 0, the last axis of each operand contracted. -/
abbrev rowsDot : DotDims S8x512x64 S8x512x64 S8x512x512 := dot_S8x512x64_S8x512x64_S8x512x512_2_2_1_1_0_0

theorem rowsDot_lhs0 (i : S8x512x512.Idx) (q : rowsDot.contr.Idx) : (rowsDot.lhsIdx i q 0).val = (i 0).val := by
  unfold DotDims.lhsIdx
  rw [dif_pos (show (0 : Fin S8x512x64.rank) ∈ rowsDot.lhsBatch by decide)]
  rfl
theorem rowsDot_lhs1 (i : S8x512x512.Idx) (q : rowsDot.contr.Idx) : (rowsDot.lhsIdx i q 1).val = (i 1).val := by
  unfold DotDims.lhsIdx
  rw [dif_neg (show ¬(1 : Fin S8x512x64.rank) ∈ rowsDot.lhsBatch by decide),
    dif_pos (show (1 : Fin S8x512x64.rank) ∈ rowsDot.lhsNonContracting by decide)]
  rfl
theorem rowsDot_lhs2 (i : S8x512x512.Idx) (q : rowsDot.contr.Idx) :
    (rowsDot.lhsIdx i q 2).val = (q ⟨0, by decide⟩).val :=
  rowsDot.lhsIdx_val_of_single rfl i q
theorem rowsDot_rhs0 (i : S8x512x512.Idx) (q : rowsDot.contr.Idx) : (rowsDot.rhsIdx i q 0).val = (i 0).val := by
  unfold DotDims.rhsIdx
  rw [dif_pos (show (0 : Fin S8x512x64.rank) ∈ rowsDot.rhsBatch by decide)]
  rfl
theorem rowsDot_rhs1 (i : S8x512x512.Idx) (q : rowsDot.contr.Idx) : (rowsDot.rhsIdx i q 1).val = (i 2).val := by
  unfold DotDims.rhsIdx
  rw [dif_neg (show ¬(1 : Fin S8x512x64.rank) ∈ rowsDot.rhsBatch by decide),
    dif_pos (show (1 : Fin S8x512x64.rank) ∈ rowsDot.rhsNonContracting by decide)]
  rfl
theorem rowsDot_rhs2 (i : S8x512x512.Idx) (q : rowsDot.contr.Idx) :
    (rowsDot.rhsIdx i q 2).val = (q ⟨0, by decide⟩).val :=
  rowsDot.rhsIdx_val_of_single rfl i q

/-- The product into the zero block, read at `(p, s, n)`: the sum over the 64 coordinates of row `(p, s)` of the
    left operand times row `(p, n)` of the right one. -/
theorem rowsProduct_apply {φ₁ φ₂ : FTy} (a : FVec Ideal S8x512x64 φ₁) (b : FVec Ideal S8x512x64 φ₂)
    (p : Fin 8) (s n : Fin 512) :
    matmul rowsDot none a b (constant S8x512x512 .f32 0x00000000#32) (ix3 p s n)
      = ∑ e : Fin 64, a (ix3 p s e) * b (ix3 p n e) := by
  simp only [matmul]
  rw [Ideal.matmul_constant_zero_apply, ← Equiv.sum_comp (contrEquiv1 rowsDot 64 rfl rfl).symm]
  refine Finset.sum_congr rfl fun k _ => ?_
  have hk := contrEquiv1_symm_val rowsDot 64 rfl rfl k
  have el : rowsDot.lhsIdx (ix3 p s n) ((contrEquiv1 rowsDot 64 rfl rfl).symm k) = ix3 p s k :=
    funext fun c => Fin.ext (by
      match c with
      | ⟨0, _⟩ => exact rowsDot_lhs0 _ _
      | ⟨1, _⟩ => exact rowsDot_lhs1 _ _
      | ⟨2, _⟩ => exact (rowsDot_lhs2 _ _).trans hk)
  have er : rowsDot.rhsIdx (ix3 p s n) ((contrEquiv1 rowsDot 64 rfl rfl).symm k) = ix3 p n k :=
    funext fun c => Fin.ext (by
      match c with
      | ⟨0, _⟩ => exact rowsDot_rhs0 _ _
      | ⟨1, _⟩ => exact rowsDot_rhs1 _ _
      | ⟨2, _⟩ => exact (rowsDot_rhs2 _ _).trans hk)
  rw [el, er]

/-- The block of cosines: the product of the two normalised blocks (the change of format between them is the identity). -/
def cosines (u v : FVec Ideal S8x512x64 .f32) : FVec Ideal S8x512x512 .f32 :=
  matmul rowsDot none (truncf .bf16 (normalised u) bitsLt_bf16_f32) (truncf .bf16 (normalised v) bitsLt_bf16_f32)
    (constant S8x512x512 .f32 0x00000000#32)

/-- Its entry at `(p, s, n)` is the cosine of row `(p, s)` of the first block and row `(p, n)` of the second. -/
theorem cosines_apply (u v : FVec Ideal S8x512x64 .f32) (p : Fin 8) (s n : Fin 512) :
    cosines u v (ix3 p s n) = cosine (fun e => u (ix3 p s e)) (fun e => v (ix3 p n e)) := by
  unfold cosines cosine
  rw [rowsProduct_apply]
  refine Finset.sum_congr rfl fun e _ => ?_
  rw [truncf_apply, truncf_apply, normalised_apply, normalised_apply]

/-! ## The scores -/

/-- The block of scores from a block `c` of cosines: at each `(p, s, n)` the logistic function of
    `c · weight · pw + pb`, times the mask; weight and mask are one row per batch entry, `pw` and `pb` single numbers. -/
def scores (c : FVec Ideal S8x512x512 .f32) (pw : FVec Ideal S1x1 .f32) (pb : FVec Ideal S1 .f32)
    (w mk : FVec Ideal S8x1x512 .f32) : FVec Ideal S8x512x512 .f32 :=
  mulf
    (logistic
      (addf
        (mulf
          (mulf c (broadcastTo S8x512x512 (shapeCast S8x1x512 w shapeCasts_S8x1x512_S8x1x512) broadcasts_S8x1x512_S8x512x512))
          (broadcast S8x512x512 (extractAt ![0, 0] pw inpos_S1x1_p0_0)))
        (broadcast S8x512x512 (extractAt ![0] pb inpos_S1_p0))))
    (broadcastTo S8x512x512 mk broadcasts_S8x1x512_S8x512x512)

/-- The one entry of a `[1,1]` array, taken at position `(0, 0)`. -/
theorem extract_pw (pw : FVec Ideal S1x1 .f32) : extractAt ![0, 0] pw inpos_S1x1_p0_0 = pw (ix2 (0 : Fin 1) (0 : Fin 1)) :=
  congrArg pw (funext fun a => Fin.ext (by match a with | ⟨0, _⟩ => rfl | ⟨1, _⟩ => rfl))

/-- The one entry of a `[1]` array, taken at position `0`. -/
theorem extract_pb (pb : FVec Ideal S1 .f32) : extractAt ![0] pb inpos_S1_p0 = pb (ix1 (0 : Fin 1)) :=
  congrArg pb (funext fun a => Fin.ext (by match a with | ⟨0, _⟩ => rfl))

theorem scores_apply (c : FVec Ideal S8x512x512 .f32) (pw : FVec Ideal S1x1 .f32) (pb : FVec Ideal S1 .f32)
    (w mk : FVec Ideal S8x1x512 .f32) (p : Fin 8) (s n : Fin 512) :
    scores c pw pb w mk (ix3 p s n)
      = score (c (ix3 p s n)) (w (ix3 p (0 : Fin 1) n)) (pw (ix2 (0 : Fin 1) (0 : Fin 1))) (pb (ix1 (0 : Fin 1)))
          (mk (ix3 p (0 : Fin 1) n)) := by
  unfold scores score
  rw [shapeCast_self, extract_pw, extract_pb, mulf_apply, spreadRow_apply]
  show Ideal.logistic (addf (F := Ideal) (φ := .f32) _ _ (ix3 p s n)) * _ = _
  rw [addf_apply, mulf_apply, mulf_apply, spreadRow_apply]
  rfl

/-! ## The maximum over the items, and the whole body -/

/-- The maximum along the last axis of a block, from the word of `−∞`, read at `(p, s)`. -/
theorem maxItems_apply (x : FVec Ideal S8x512x512 .f32) (p : Fin 8) (s : Fin 512) :
    multiReduction (F := Ideal) .maximumf [2] S8x512 x 0xFF800000#32 reduces_S8x512x512_S8x512 (.inl rfl) rfl (ix2 p s)
      = itemMax fun n => x (ix3 p s n) :=
  (Ideal.multiReduction_maximumf_single x 0xFF800000#32 reduces_S8x512x512_S8x512 (.inl rfl) rfl (ix2 p s)).trans
    (show (Finset.univ : Finset (Fin 512)).fold max (Ideal.ofBits .f32 0xFF800000#32)
        (fun n : Fin 512 => x (reduces_S8x512x512_S8x512.lift (ix2 p s) n)) = _ from
      Finset.fold_congr fun n _ => by rw [lift_item])

/-- The body's arithmetic is the maximum over the items of the scores of the cosines. -/
theorem pay_eq (u v : Vec Ideal S8x512x64 .f32) (pw : Vec Ideal S1x1 .f32) (pb : Vec Ideal S1 .f32)
    (w mk : Vec Ideal S8x1x512 .f32) :
    k0_pay1 (F := Ideal) u v pw pb w mk
      = multiReduction (F := Ideal) .maximumf [2] S8x512 (scores (cosines u v) pw pb w mk) 0xFF800000#32
          reduces_S8x512x512_S8x512 (.inl rfl) rfl := rfl

/-- THE BODY AT AN INDEX: at `(p, s)` the maximum over the 512 items `n` of the score of the cosine of row `(p, s)` of
    the first block and row `(p, n)` of the second, with the item's weight and mask. -/
theorem pay_apply (u v : Vec Ideal S8x512x64 .f32) (pw : Vec Ideal S1x1 .f32) (pb : Vec Ideal S1 .f32)
    (w mk : Vec Ideal S8x1x512 .f32) (p : Fin 8) (s : Fin 512) :
    k0_pay1 (F := Ideal) u v pw pb w mk (ix2 p s)
      = itemMax fun n => score (cosine (fun e => u (ix3 p s e)) (fun e => v (ix3 p n e)))
          (w (ix3 p (0 : Fin 1) n)) (pw (ix2 (0 : Fin 1) (0 : Fin 1))) (pb (ix1 (0 : Fin 1))) (mk (ix3 p (0 : Fin 1) n)) := by
  rw [pay_eq, maxItems_apply]
  exact congrArg itemMax (funext fun n => by rw [scores_apply, cosines_apply])

end Cert.CosineGate.Body

end
-- ==== Proof.Blocks.lean ====
/-
  From the blocks the kernel writes to the whole result array.

  The grid has 16 points. At point t every batched operand is staged by blocks of 8 batch entries: the block of the user
  and item arrays holds rows 8t … 8t+7, the blocks of the (transposed) weight array and of the mask likewise, the two
  scalars pw, pb are staged whole, and the output block is rows 8t … 8t+7 of the [128, 512] result. The array the
  weight window stages is written before the region as the weight array with its last two axes exchanged, so its
  entry (b, 0, n) is weight[b, n, 0].

  So row p of what point t writes back is the specification at batch entry 8t + p, every output block is the
  restriction of ONE whole-array function of the six arguments, the 16 blocks cover the 128 rows (row r lies in the
  block of point r / 8), and the result array ends holding that function.
-/
import proofs.«154380_j25967372271703_1_alg».proof.Proof.Gen.KernelIdeal.Value
import proofs.«154380_j25967372271703_1_alg».proof.Proof.Spec
import proofs.«154380_j25967372271703_1_alg».proof.Proof.Payload
import Idealize.ShloMosaic.Lib.Pipeline.Value
import Idealize.ShloMosaic.Lib.ValueIdx
import Idealize.ShloMosaic.Lib.StableHlo.Run

noncomputable section

namespace Cert.CosineGate.Blocks

open Cert.KernelIdeal Cert.KernelIdeal.Gen Cert.KernelIdeal.Value Idealize.ShloMosaic Idealize.ShloMosaic.TcCoe Idealize.SL.Sem
open Idealize.ShloMosaic.ValueIdx Cert.CosineGate
open Idealize.ShloMosaic.Pipeline (Dat)

variable (m : (ℓ : Loc nD τ sig) → Buf (Elt Ideal) ℓ) (ρ : Dev nD → PrngReg)

/-- The printed index maps, decided once over the 16 grid points: the two scalar windows stay at block 0; every batched
    window, the output's included, is at block `t` on the batch axis and block 0 on the others. -/
theorem idx_facts : ∀ t : Fin cfg0.N,
    win0_0.index t (0 : Fin 2) = 0 ∧ win0_0.index t (1 : Fin 2) = 0
    ∧ win0_1.index t (0 : Fin 1) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0
    ∧ win0_6.index t (0 : Fin 2) = t.val ∧ win0_6.index t (1 : Fin 2) = 0 :=
  (by decide +kernel : ∀ t : Fin grid0.N, _)

/-- A grid point is below 16. -/
theorem tlt (t : Fin cfg0.N) : t.val < 16 := by have h : cfg0.N = 16 := N_0; have := t.isLt; omega

/-- The batch entry that row `p` of point `t`'s blocks is. -/
def row (t : Fin cfg0.N) (p : Fin 8) : Fin 128 := ⟨8 * t.val + p.val, by have := tlt t; have := p.isLt; omega⟩

/-- Point `t`'s block of the user array, at (p, s, e), is the user array at (8t + p, s, e). -/
theorem blk2_apply (c : Dev nD) (t : Fin cfg0.N) (p : Fin 8) (s : Fin 512) (e : Fin 64) :
    (iblk m c 2 t : Vec Ideal S8x512x64 .f32) (ix3 p s e) = (m ((c : Thread nD τ).loc main_arg0) : S128x512x64.Idx → EReal) (ix3 (row t p) s e) := by
  obtain ⟨-, -, -, e0, e1, e2, -⟩ := idx_facts t
  unfold iblk
  rw [View.read_apply]
  show V m c main_arg0 _ = _
  rw [V_main_arg0]
  refine congrArg _ (funext fun a => Fin.ext ?_)
  match a with
  | ⟨0, _⟩ => show win0_2.index t (0 : Fin 3) * 8 + 1 * p.val = 8 * t.val + p.val; omega
  | ⟨1, _⟩ => show win0_2.index t (1 : Fin 3) * 512 + 1 * s.val = s.val; omega
  | ⟨2, _⟩ => show win0_2.index t (2 : Fin 3) * 64 + 1 * e.val = e.val; omega

/-- Point `t`'s block of the item array, at (p, s, e), is the item array at (8t + p, s, e). -/
theorem blk3_apply (c : Dev nD) (t : Fin cfg0.N) (p : Fin 8) (s : Fin 512) (e : Fin 64) :
    (iblk m c 3 t : Vec Ideal S8x512x64 .f32) (ix3 p s e) = (m ((c : Thread nD τ).loc main_arg1) : S128x512x64.Idx → EReal) (ix3 (row t p) s e) := by
  obtain ⟨-, -, -, -, -, -, e0, e1, e2, -⟩ := idx_facts t
  unfold iblk
  rw [View.read_apply]
  show V m c main_arg1 _ = _
  rw [V_main_arg1]
  refine congrArg _ (funext fun a => Fin.ext ?_)
  match a with
  | ⟨0, _⟩ => show win0_3.index t (0 : Fin 3) * 8 + 1 * p.val = 8 * t.val + p.val; omega
  | ⟨1, _⟩ => show win0_3.index t (1 : Fin 3) * 512 + 1 * s.val = s.val; omega
  | ⟨2, _⟩ => show win0_3.index t (2 : Fin 3) * 64 + 1 * e.val = e.val; omega

/-- Point `t`'s block of the mask, at (p, 0, n), is the mask at (8t + p, 0, n). -/
theorem blk5_apply (c : Dev nD) (t : Fin cfg0.N) (p : Fin 8) (n : Fin 512) :
    (iblk m c 5 t : Vec Ideal S8x1x512 .f32) (ix3 p (0 : Fin 1) n) = (m ((c : Thread nD τ).loc main_arg3) : S128x1x512.Idx → EReal) (ix3 (row t p) (0 : Fin 1) n) := by
  obtain ⟨-, -, -, -, -, -, -, -, -, -, -, -, e0, e1, e2, -⟩ := idx_facts t
  unfold iblk
  rw [View.read_apply]
  show V m c main_arg3 _ = _
  rw [V_main_arg3]
  refine congrArg _ (funext fun a => Fin.ext ?_)
  match a with
  | ⟨0, _⟩ => show win0_5.index t (0 : Fin 3) * 8 + 1 * p.val = 8 * t.val + p.val; omega
  | ⟨1, _⟩ => show win0_5.index t (1 : Fin 3) * 1 + 1 * 0 = 0; omega
  | ⟨2, _⟩ => show win0_5.index t (2 : Fin 3) * 512 + 1 * n.val = n.val; omega

/-- The staged [1, 1] scalar is the argument's one entry, at every point. -/
theorem blk0_apply (c : Dev nD) (t : Fin cfg0.N) :
    (iblk m c 0 t : Vec Ideal S1x1 .f32) (ix2 (0 : Fin 1) (0 : Fin 1)) = (m ((c : Thread nD τ).loc main_arg4) : S1x1.Idx → EReal) (ix2 (0 : Fin 1) (0 : Fin 1)) := by
  obtain ⟨e0, e1, -⟩ := idx_facts t
  unfold iblk
  rw [View.read_apply]
  show V m c main_arg4 _ = _
  rw [V_main_arg4]
  refine congrArg _ (funext fun a => Fin.ext ?_)
  match a with
  | ⟨0, _⟩ => show win0_0.index t (0 : Fin 2) * 1 + 1 * 0 = 0; omega
  | ⟨1, _⟩ => show win0_0.index t (1 : Fin 2) * 1 + 1 * 0 = 0; omega

/-- The staged [1] scalar is the argument's one entry, at every point. -/
theorem blk1_apply (c : Dev nD) (t : Fin cfg0.N) :
    (iblk m c 1 t : Vec Ideal S1 .f32) (ix1 (0 : Fin 1)) = (m ((c : Thread nD τ).loc main_arg5) : S1.Idx → EReal) (ix1 (0 : Fin 1)) := by
  obtain ⟨-, -, e0, -⟩ := idx_facts t
  unfold iblk
  rw [View.read_apply]
  show V m c main_arg5 _ = _
  rw [V_main_arg5]
  refine congrArg _ (funext fun a => Fin.ext ?_)
  match a with
  | ⟨0, _⟩ => show win0_1.index t (0 : Fin 1) * 1 + 1 * 0 = 0; omega

/-- The array the fifth window stages is the weight array with its last two axes exchanged. -/
theorem V_weightT (c : Dev nD) :
    (V m c main_v0 : S128x1x512.Idx → EReal)
      = transpose S128x1x512 [0, 2, 1] (m ((c : Thread nD τ).loc main_arg2) : S128x512x1.Idx → EReal) transposes_S128x512x1_S128x1x512_0_2_1 := by
  dsimp only [V, hostOps0]
  after_results

/-- Point `t`'s block of the transposed weight array, at (p, 0, n), is the weight array at (8t + p, n, 0). -/
theorem blk4_apply (c : Dev nD) (t : Fin cfg0.N) (p : Fin 8) (n : Fin 512) :
    (iblk m c 4 t : Vec Ideal S8x1x512 .f32) (ix3 p (0 : Fin 1) n) = (m ((c : Thread nD τ).loc main_arg2) : S128x512x1.Idx → EReal) (ix3 (row t p) n (0 : Fin 1)) := by
  obtain ⟨-, -, -, -, -, -, -, -, -, e0, e1, e2, -⟩ := idx_facts t
  unfold iblk
  rw [View.read_apply]
  show V m c main_v0 _ = _
  rw [V_weightT]
  refine transpose_apply [0, 2, 1] _ _ _ _ (fun b => ?_)
  match b with
  | ⟨0, _⟩ => show 8 * t.val + p.val = win0_4.index t (0 : Fin 3) * 8 + 1 * p.val; omega
  | ⟨1, _⟩ => show 0 = win0_4.index t (1 : Fin 3) * 1 + 1 * 0; omega
  | ⟨2, _⟩ => show n.val = win0_4.index t (2 : Fin 3) * 512 + 1 * n.val; omega

/-- The zero offsets, spelt as the printed rectangles spell them. -/
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The result array, as the specification's function of the six argument arrays as launched. -/
abbrev target (c : Dev nD) : S128x512.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What the body leaves at point `t`, at row `p` and position `s` of its block, is the specification at batch entry `8t + p`. -/
theorem point_apply (c : Dev nD) (t : Fin cfg0.N) (p : Fin 8) (s : Fin 512) :
    k0_pay1 (F := Ideal) (iblk m c 2 t) (iblk m c 3 t) (iblk m c 0 t) (iblk m c 1 t) (iblk m c 4 t) (iblk m c 5 t) (ix2 p s)
      = target m c (ix2 (row t p) s) := by
  refine (Body.pay_apply _ _ _ _ _ _ p s).trans ?_
  unfold target
  rw [result_ix2]
  unfold resultAt
  simp only [blk2_apply, blk3_apply, blk4_apply, blk5_apply, blk0_apply, blk1_apply]

/-- What point `t` writes back is block `t` of the specification's whole-array function: the output block's row p sits
    at row 8t + p of the result array. -/
theorem flushed_eq (c : Dev nD) (t : Fin cfg0.N) :
    (dats m 0 c).flushed 6 t = ((cfg0.win 6).blk t).view.read (Elt Ideal) (target m c) := by
  rw [flushed6]
  unfold out0_6
  rw [View.canon_unit_zero hz2]
  simp only [View.ld_unit_zero (S := S8x512x64) hz3, View.ld_unit_zero (S := S1x1) hz2, View.ld_unit_zero (S := S1) hz1,
    View.ld_unit_zero (S := S8x1x512) hz3]
  obtain ⟨-, -, -, -, -, -, -, -, -, -, -, -, -, -, -, e0, e1⟩ := idx_facts t
  funext j
  obtain ⟨p, s, rfl⟩ : ∃ (p : Fin 8) (s : Fin 512), j = ix2 p s := ⟨j 0, j 1, eq_ix2 j⟩
  show k0_pay1 (F := Ideal) (iblk m c 2 t) (iblk m c 3 t) (iblk m c 0 t) (iblk m c 1 t) (iblk m c 4 t) (iblk m c 5 t) (ix2 p s)
    = target m c (((cfg0.win 6).blk t).view.emb (ix2 p s))
  rw [point_apply]
  refine congrArg _ (funext fun a => Fin.ext ?_)
  match a with
  | ⟨0, _⟩ => show 8 * t.val + p.val = win0_6.index t (0 : Fin 2) * 8 + 1 * p.val; omega
  | ⟨1, _⟩ => show s.val = win0_6.index t (1 : Fin 2) * 512 + 1 * s.val; omega

/-- An index of the result array lies in point `t`'s output block iff each coordinate lies in the block's range. -/
theorem mem_blk (t : Fin cfg0.N) (i : S128x512.Idx) :
    i ∈ ((cfg0.win 6).blk t).view.set ↔ ∀ a : Fin 2, win0_6.index t a * S8x512.size a ≤ (i a).val ∧ (i a).val < win0_6.index t a * S8x512.size a + S8x512.size a := by
  show i ∈ ((View.whole main_v1).slice (win0_6.rect t)).set ↔ _
  rw [View.set_slice_whole, Rect.mem_set_unit]
  exact Iff.rfl

/-- The output blocks cover the result array: row r lies in the block of point r / 8. -/
theorem cover (i : S128x512.Idx) : ∃ t : Fin cfg0.N, (cfg0.win 6).flush t = true ∧ i ∈ ((cfg0.win 6).blk t).view.set := by
  have hN : cfg0.N = 16 := N_0
  have hi0 : (i 0).val < 128 := (i 0).isLt
  have hi1 : (i 1).val < 512 := (i 1).isLt
  let t : Fin cfg0.N := ⟨(i 0).val / 8, by omega⟩
  obtain ⟨-, -, -, -, -, -, -, -, -, -, -, -, -, -, -, e0, e1⟩ := idx_facts t
  have ht : t.val = (i 0).val / 8 := rfl
  refine ⟨t, flush0_6 t, ?_⟩
  rw [mem_blk]
  intro a
  match a with
  | ⟨0, _⟩ => show win0_6.index t (0 : Fin 2) * 8 ≤ (i 0).val ∧ (i 0).val < win0_6.index t (0 : Fin 2) * 8 + 8; omega
  | ⟨1, _⟩ => show win0_6.index t (1 : Fin 2) * 512 ≤ (i 1).val ∧ (i 1).val < win0_6.index t (1 : Fin 2) * 512 + 512; omega

/-- So after the run the result array holds the specification's function of the arguments. -/
theorem final (c : Dev nD) : (dats m 0 c).arrAt 6 cfg0.N = target m c :=
  (dats m 0 c).arrAt_eq_of_cover 6 (target m c) (fun t _ => flushed_eq m c t) cover

/-- The kernel's run, read: the result array ends at the specification's function of the arguments, the arguments unchanged. -/
theorem run : θ_run defs (onTc (τ := τ) (main (F := Ideal))) ⟨m, fun _ => 0, ρ⟩ fun r => ∀ c : Dev nD,
      r.2.mem ((c : Thread nD τ).loc main_v1) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.CosineGate.Blocks

end
-- ==== Proof.RefValue.lean ====
/-
  The reference's value is the specified function.

  Entry by entry the reference does the following. Each row user[b, s, ·] and item[b, n, ·] (64 numbers) is divided by
  its Euclidean length, the length being the square root of the sum of the squares, clamped from below by the word of
  1e-7. For every batch entry b it forms the inner products of the normalised rows, item row n against user row s, so
  the entry at (b, n, s) is the cosine of the two rows with the item row written first. That entry is multiplied by
  weight[b, n] and by the single number pw, the single number pb is added, and x ↦ 1 / (1 + exp (−x)) is applied, the two
  ones being the word 0x3F800000. The last two axes are then exchanged, so that the value sits at (b, s, n), it is
  multiplied by mask[b, n], and the maximum over n is taken, as a fold of `max` that starts from the word of −∞.

  The specification writes the cosine with the user row first; the product inside the sum commutes, and that is the
  only law used. Every other step is the reading of one operation at one index, with the index written out from its
  coordinates b : Fin 128, s n : Fin 512, e : Fin 64.
-/
import proofs.«154380_j25967372271703_1_alg».proof.Proof.Gen.ReferenceIdeal.Read
import proofs.«154380_j25967372271703_1_alg».proof.Proof.Spec
import Idealize.ShloMosaic.PureOps.Reduce
import Idealize.ShloMosaic.PureOps.Ideal.Laws
import Idealize.ShloMosaic.PureOps.IdealRules
import Idealize.ShloMosaic.Lib.Pipeline.Value
import Idealize.ShloMosaic.Lib.ValueIdx

noncomputable section

namespace Cert.CosineGate.Ref

open Cert.ReferenceIdeal Cert.ReferenceIdeal.Gen Cert.ReferenceIdeal.Read Idealize.ShloMosaic Idealize.ShloMosaic.ValueIdx

/-! ### The normalised rows -/

/-- The squares summed for the length of user row (b, s) are those of its own 64 entries: the index the sum reads at
    coordinate `k`, starting from any entry (b, s, e) of the row, is (b, s, k). -/
theorem user_row_index (b : Fin 128) (s : Fin 512) (e k : Fin 64) :
    idx_main_call0_v1 (idx_main_call0_v2 (idx_main_v3 (ix3 b s e))) k = ix3 b s k :=
  funext fun a => Fin.ext (by match a with | ⟨0, _⟩ => rfl | ⟨1, _⟩ => rfl | ⟨2, _⟩ => rfl)

/-- The same for item row (b, n). -/
theorem item_row_index (b : Fin 128) (n : Fin 512) (e k : Fin 64) :
    idx_main_call1_v1 (idx_main_call1_v2 (idx_main_v8 (ix3 b n e))) k = ix3 b n k :=
  funext fun a => Fin.ext (by match a with | ⟨0, _⟩ => rfl | ⟨1, _⟩ => rfl | ⟨2, _⟩ => rfl)

/-- A normalised user entry is the entry divided by its row's clamped length. The sum of squares starts from the word
    of zero, which is 0, so it is the bare sum. -/
theorem user_entry (x0 : (⟨S128x512x64, .f32⟩ : BufTy).Contents (Elt Ideal)) (b : Fin 128) (s : Fin 512) (e : Fin 64) :
    val_main_v4 (F := Ideal) x0 (ix3 b s e)
      = Ideal.div (x0 (ix3 b s e)) (clampedLength fun e' => x0 (ix3 b s e')) := by
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, user_row_index, Ideal.hostDivf_def, Ideal.maximumf_def, Ideal.hostUnary_sqrt_def,
    Ideal.ofBits_def, Ideal.mulf_def, Ideal.ofBits_zero_f32, zero_add]
  rfl

/-- A normalised item entry, likewise. -/
theorem item_entry (x1 : (⟨S128x512x64, .f32⟩ : BufTy).Contents (Elt Ideal)) (b : Fin 128) (n : Fin 512) (e : Fin 64) :
    val_main_v9 (F := Ideal) x1 (ix3 b n e)
      = Ideal.div (x1 (ix3 b n e)) (clampedLength fun e' => x1 (ix3 b n e')) := by
  rw [val_main_v9_apply, val_main_v8_apply, val_main_v7_apply, val_main_v5_apply, val_main_call1_v2_apply,
    val_main_call1_v1_apply, val_main_v6_apply, val_main_cst_0_apply, val_main_call1_cst_apply]
  simp only [val_main_call1_v0_apply, item_row_index, Ideal.hostDivf_def, Ideal.maximumf_def, Ideal.hostUnary_sqrt_def,
    Ideal.ofBits_def, Ideal.mulf_def, Ideal.ofBits_zero_f32, zero_add]
  rfl

/-! ### The inner products -/

/-- At (b, n, s) the left factor of the k-th product is the item row's entry (b, n, k) … -/
theorem left_index (b : Fin 128) (n s : Fin 512) (k : Fin 64) : lidx_main_v10 (ix3 b n s) k = ix3 b n k :=
  funext fun a => Fin.ext (by match a with | ⟨0, _⟩ => rfl | ⟨1, _⟩ => rfl | ⟨2, _⟩ => rfl)

/-- … and the right factor is the user row's entry (b, s, k). -/
theorem right_index (b : Fin 128) (n s : Fin 512) (k : Fin 64) : ridx_main_v10 (ix3 b n s) k = ix3 b s k :=
  funext fun a => Fin.ext (by match a with | ⟨0, _⟩ => rfl | ⟨1, _⟩ => rfl | ⟨2, _⟩ => rfl)

/-- The inner product at (b, n, s) is the cosine of item row (b, n) and user row (b, s), the item row first. -/
theorem dot_entry (x0 x1 : (⟨S128x512x64, .f32⟩ : BufTy).Contents (Elt Ideal)) (b : Fin 128) (n s : Fin 512) :
    val_main_v10 (F := Ideal) x0 x1 (ix3 b n s)
      = cosine (fun e => x1 (ix3 b n e)) (fun e => x0 (ix3 b s e)) := by
  rw [val_main_v10_apply]
  simp only [left_index, right_index, user_entry, item_entry]
  rfl

/-! ### Weight, scale and shift -/

/-- The weight that multiplies the entry at (b, n, s) is weight[b, n, 0]. -/
theorem weight_index (b : Fin 128) (n s : Fin 512) : idx_main_v11 (ix3 b n s) = ix3 b n (0 : Fin 1) :=
  funext fun a => Fin.ext (by match a with | ⟨0, _⟩ => rfl | ⟨1, _⟩ => rfl | ⟨2, _⟩ => rfl)

/-- The 1 × 1 array pw seen as a single number is its entry (0, 0): both sit at row-major position 0. -/
theorem scale_entry (x4 : (⟨S1x1, .f32⟩ : BufTy).Contents (Elt Ideal)) (j : S_.Idx) :
    val_main_v13 (F := Ideal) x4 j = x4 (ix2 (0 : Fin 1) (0 : Fin 1)) := by
  unfold val_main_v13
  refine shapeCast_apply x4 shapeCasts_S1x1_S_ j (ix2 (0 : Fin 1) (0 : Fin 1)) ?_
  rw [Shape.rowMajor_val_two]
  exact (Shape.rowMajorPi_zero _ _).symm

/-- The one-entry array pb seen as a single number is its entry 0. -/
theorem shift_entry (x5 : (⟨S1, .f32⟩ : BufTy).Contents (Elt Ideal)) (j : S_.Idx) :
    val_main_v16 (F := Ideal) x5 j = x5 (ix1 (0 : Fin 1)) := by
  unfold val_main_v16
  refine shapeCast_apply x5 shapeCasts_S1_S_ j (ix1 (0 : Fin 1)) ?_
  rw [Shape.rowMajor_val_one]
  exact (Shape.rowMajorPi_zero _ _).symm

/-- The word 0x3F800000 is the number 1. -/
theorem one_word : Ideal.ofBits .f32 0x3F800000#32 = 1 := IdealRules.sign_bit.ideal_onePat .f32

/-- Before the exchange of axes, the entry at (b, n, s) is the logistic function of the weighted, scaled and shifted
    cosine: 1 / (1 + exp (−x)) with both ones the word of 1 is `Ideal.logistic x` by definition. -/
theorem gate_entry (x0 x1 : (⟨S128x512x64, .f32⟩ : BufTy).Contents (Elt Ideal)) (x2 : (⟨S128x512x1, .f32⟩ : BufTy).Contents (Elt Ideal))
    (x4 : (⟨S1x1, .f32⟩ : BufTy).Contents (Elt Ideal)) (x5 : (⟨S1, .f32⟩ : BufTy).Contents (Elt Ideal))
    (b : Fin 128) (n s : Fin 512) :
    val_main_v24 (F := Ideal) x0 x1 x2 x4 x5 (ix3 b n s)
      = Ideal.logistic (cosine (fun e => x1 (ix3 b n e)) (fun e => x0 (ix3 b s e)) * x2 (ix3 b n (0 : Fin 1))
          * x4 (ix2 (0 : Fin 1) (0 : Fin 1)) + x5 (ix1 (0 : Fin 1))) := by
  rw [val_main_v24_apply, val_main_v23_apply, val_main_cst_2_apply, val_main_v22_apply, val_main_v21_apply,
    val_main_cst_1_apply, val_main_v20_apply, val_main_v19_apply, val_main_v18_apply, val_main_v15_apply,
    val_main_v12_apply, dot_entry, val_main_v11_apply, weight_index, val_main_v14_apply, scale_entry,
    val_main_v17_apply, shift_entry]
  simp only [Ideal.hostDivf_def, Ideal.addf_def, Ideal.hostUnary_exp_def, Ideal.hostNegf_def, Ideal.negf_def,
    Ideal.mulf_def, Ideal.ofBits_def, one_word]
  rfl

/-! ### The exchange of axes, the mask, and the score -/

/-- Exchanging the last two axes: the entry at (b, s, n) is the earlier entry at (b, n, s). -/
theorem swap_index (b : Fin 128) (s n : Fin 512) : idx_main_v25 (ix3 b s n) = ix3 b n s :=
  funext fun a => Fin.ext (by match a with | ⟨0, _⟩ => rfl | ⟨1, _⟩ => rfl | ⟨2, _⟩ => rfl)

/-- The mask that multiplies the entry at (b, s, n) is mask[b, 0, n]. -/
theorem mask_index (b : Fin 128) (s n : Fin 512) : idx_main_v26 (ix3 b s n) = ix3 b (0 : Fin 1) n :=
  funext fun a => Fin.ext (by match a with | ⟨0, _⟩ => rfl | ⟨1, _⟩ => rfl | ⟨2, _⟩ => rfl)

/-- The masked entry at (b, s, n) is the specified score of item n for (b, s). Here the two rows of the cosine change
    places, by commutativity of the product inside the sum. -/
theorem score_entry (x0 x1 : (⟨S128x512x64, .f32⟩ : BufTy).Contents (Elt Ideal)) (x2 : (⟨S128x512x1, .f32⟩ : BufTy).Contents (Elt Ideal))
    (x3 : (⟨S128x1x512, .f32⟩ : BufTy).Contents (Elt Ideal))
    (x4 : (⟨S1x1, .f32⟩ : BufTy).Contents (Elt Ideal)) (x5 : (⟨S1, .f32⟩ : BufTy).Contents (Elt Ideal))
    (b : Fin 128) (s n : Fin 512) :
    val_main_v27 (F := Ideal) x0 x1 x2 x3 x4 x5 (ix3 b s n)
      = score (cosine (fun e => x0 (ix3 b s e)) (fun e => x1 (ix3 b n e))) (x2 (ix3 b n (0 : Fin 1)))
          (x4 (ix2 (0 : Fin 1) (0 : Fin 1))) (x5 (ix1 (0 : Fin 1))) (x3 (ix3 b (0 : Fin 1) n)) := by
  rw [val_main_v27_apply, val_main_v25_apply, swap_index, gate_entry, val_main_v26_apply, mask_index,
    cosine_comm, Ideal.mulf_def]
  rfl

/-! ### The maximum over the items -/

/-- The index of the 128 × 512 × 512 array that lies over (b, s) with coordinate n on the last axis is (b, s, n). -/
theorem lift_index (h : S128x512x512.Reduces [2] S128x512) (b : Fin 128) (s n : Fin 512) :
    h.lift (ix2 b s) n = ix3 b s n :=
  funext fun a => Fin.ext (by match a with | ⟨0, _⟩ => rfl | ⟨1, _⟩ => rfl | ⟨2, _⟩ => rfl)

/-- The reference's value at (b, s). The maximum is commutative and associative, so the reduction over the last axis
    is the fold of `max` over n : Fin 512, from the word of −∞, of the scores — which is `resultAt`. -/
theorem ref_at (x0 x1 : (⟨S128x512x64, .f32⟩ : BufTy).Contents (Elt Ideal)) (x2 : (⟨S128x512x1, .f32⟩ : BufTy).Contents (Elt Ideal))
    (x3 : (⟨S128x1x512, .f32⟩ : BufTy).Contents (Elt Ideal))
    (x4 : (⟨S1x1, .f32⟩ : BufTy).Contents (Elt Ideal)) (x5 : (⟨S1, .f32⟩ : BufTy).Contents (Elt Ideal))
    (b : Fin 128) (s : Fin 512) :
    val_main_v28 (F := Ideal) x0 x1 x2 x3 x4 x5 (ix2 b s) = resultAt x0 x1 x2 x3 x4 x5 b s := by
  have h : S128x512x512.Reduces [2] S128x512 := by decide
  have key := Host.reduce_eq_fold_single (FloatOps.maximumf (F := Ideal) (φ := .f32))
    (val_main_v27 (F := Ideal) x0 x1 x2 x3 x4 x5) (val_main_cst_3 (F := Ideal))
    reducesTo_S128x512x512_S128x512_d2 h h_S_ (ix2 b s)
  have hrow : ∀ n : Fin 512, (val_main_v27 (F := Ideal) x0 x1 x2 x3 x4 x5 ∘ h.lift (ix2 b s)) n
      = score (cosine (fun e => x0 (ix3 b s e)) (fun e => x1 (ix3 b n e))) (x2 (ix3 b n (0 : Fin 1)))
          (x4 (ix2 (0 : Fin 1) (0 : Fin 1))) (x5 (ix1 (0 : Fin 1))) (x3 (ix3 b (0 : Fin 1) n)) := fun n =>
    (congrArg (val_main_v27 (F := Ideal) x0 x1 x2 x3 x4 x5) (lift_index h b s n)).trans
      (score_entry x0 x1 x2 x3 x4 x5 b s n)
  unfold val_main_v28
  rw [key, funext hrow]
  rfl

/-- The reference's value is the specified result array. -/
theorem ref_eq (x0 x1 : (⟨S128x512x64, .f32⟩ : BufTy).Contents (Elt Ideal)) (x2 : (⟨S128x512x1, .f32⟩ : BufTy).Contents (Elt Ideal))
    (x3 : (⟨S128x1x512, .f32⟩ : BufTy).Contents (Elt Ideal)) (x4 : (⟨S1x1, .f32⟩ : BufTy).Contents (Elt Ideal)) (x5 : (⟨S1, .f32⟩ : BufTy).Contents (Elt Ideal)) :
    val_main_v28 (F := Ideal) x0 x1 x2 x3 x4 x5 = Cert.CosineGate.result x0 x1 x2 x3 x4 x5 := by
  funext j
  obtain ⟨b, s, rfl⟩ : ∃ (b : Fin 128) (s : Fin 512), j = ix2 b s := ⟨j 0, j 1, eq_ix2 j⟩
  rw [result_ix2]
  exact ref_at x0 x1 x2 x3 x4 x5 b s

end Cert.CosineGate.Ref

end
-- ==== Proof.lean ====
/-
  The certificate's five claims.

  Both programs compute, for batch entry b and position s, the maximum over the 512 items n of
      logistic (cos(b, s, n) · weight[b, n] · pw + pb) · mask[b, n],
  where cos(b, s, n) is the sum over the 64 coordinates of the products of the normalised rows user[b, s, ·] and
  item[b, n, ·], a row being divided by its Euclidean length clamped from below by 1e-7 (Proof/Spec.lean).

  The kernel forms cos with the user row as the left factor, one block of 8 batch entries per grid point, on the
  weight array with its last two axes exchanged; the reference forms the whole [128, 512, 512] product with the item
  row as the left factor and exchanges the last two axes afterwards. Over the extended reals a change of float format
  is the identity, the kernel's contraction and the reference's are the same finite sum up to the order of the two
  factors of each term, the kernel's logistic and the reference's 1 / (1 + exp (−x)) are one function, and the two
  maxima are the same fold of `max` from the word of −∞. The only law needed to pass from one arrangement to the other is commutativity of
  the product, which holds at the infinities too; every lemma below is stated for arbitrary extended reals, and the
  precondition is never opened.

  The kernel's result array as the specification's function of the arguments: Proof/Payload.lean (the body's value at
  an index) and Proof/Blocks.lean (from the blocks to the array). The reference's: Proof/RefValue.lean. The three frames
  are the generated ones; the idealization rewrote nothing, so its claim is `True`.
-/
import proofs.«154380_j25967372271703_1_alg».proof.Defs
import proofs.«154380_j25967372271703_1_alg».proof.Proof.Gen.Kernel
import proofs.«154380_j25967372271703_1_alg».proof.Proof.Gen.Kernel.Frame
import proofs.«154380_j25967372271703_1_alg».proof.Proof.Gen.KernelIdeal
import proofs.«154380_j25967372271703_1_alg».proof.Proof.Gen.KernelIdeal.Frame
import proofs.«154380_j25967372271703_1_alg».proof.Proof.Gen.KernelIdeal.Value
import proofs.«154380_j25967372271703_1_alg».proof.Proof.Gen.ReferenceIdeal
import proofs.«154380_j25967372271703_1_alg».proof.Proof.Gen.ReferenceIdeal.Run
import proofs.«154380_j25967372271703_1_alg».proof.Proof.Gen.ReferenceIdeal.Read
import proofs.«154380_j25967372271703_1_alg».proof.Proof.Gen.Pre_finite_inputs
import proofs.«154380_j25967372271703_1_alg».proof.Proof.Blocks
import proofs.«154380_j25967372271703_1_alg».proof.Proof.RefValue

noncomputable section

namespace Cert.Proof.Claims

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, with the result forgotten, is its frame. -/
theorem frame_ri : Cert.frame_ReferenceIdeal := fun m ρ _ =>
  (θ_run Cert.ReferenceIdeal.defs _ _).mono (fun _ h c => (h c).2) (Cert.ReferenceIdeal.Value.run (F := Ideal) m ρ)

/-- The idealization is the program's own text read over the extended reals: nothing to state. -/
theorem preserves : Cert.preserves_Kernel_KernelIdeal := trivial

/-- From memories that agree on the arguments both programs end with the specification's function of the arguments
    in their result arrays. -/
theorem algebraic : Cert.algebraic_KernelIdeal_ReferenceIdeal := by
  intro m ρ m' ρ' _ hagree
  refine ⟨fun c => Cert.CosineGate.Blocks.target m c, Cert.CosineGate.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.CosineGate.Ref.ref_eq]
  obtain ⟨a0, a1, a2, a3, a4, a5⟩ := hagree c
  rw [a0, a1, a2, a3, a4, a5]

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
